-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64x16 : Shape := ⟨3, ![32768, 64, 16]⟩
abbrev S10x64 : Shape := ⟨2, ![10, 64]⟩
abbrev S_ : Shape := ⟨0, ![]⟩

class Facts : Prop where
  bcast_S_S32768x64x16 : S_.BroadcastsInDim S32768x64x16 (![] : Fin 0 → Fin S32768x64x16.rank)
  reducesTo_S32768x64x16_S_d0_1_2 : S32768x64x16.ReducesTo [0, 1, 2] S_
  h_S_ : 0 < S_.numel
  bcast_S_S10x64 : S_.BroadcastsInDim S10x64 (![] : Fin 0 → Fin S10x64.rank)
  reducesTo_S10x64_S_d0_1 : S10x64.ReducesTo [0, 1] S_

variable [Facts]

def fn {F : FTy → Type} [FloatOps F] (main_arg0 : FVec F S32768x64x16 .f32) (main_arg1 : FVec F S10x64 .f32) : IVec S_ 1 :=
  let main_v0 : FVec F S32768x64x16 .f32 := Host.absf main_arg0
  let main_cst : FVec F S_ .f32 := constant S_ .f32 0x7F800000#32
  let main_v1 : FVec F S32768x64x16 .f32 := broadcastInDim S32768x64x16 ![] bcast_S_S32768x64x16 main_cst
  let main_v2 : IVec S32768x64x16 1 := cmpf .olt main_v0 main_v1
  let main_c : IVec S_ 1 := constantI S_ 1 1#1
  let main_v3 : IVec S_ 1 := (fun x v => Host.reduce IntOp.andi x v reducesTo_S32768x64x16_S_d0_1_2 h_S_) main_v2 main_c
  let main_v4 : FVec F S10x64 .f32 := Host.absf main_arg1
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  main_v8
-- ==== Kernel.lean ====
abbrev S32768x64x16 : Shape := ⟨3, ![32768, 64, 16]⟩
abbrev S10x64 : Shape := ⟨2, ![10, 64]⟩
abbrev S32768x1024 : Shape := ⟨2, ![32768, 1024]⟩
abbrev S64x10 : Shape := ⟨2, ![64, 10]⟩
abbrev S64x16x10 : Shape := ⟨3, ![64, 16, 10]⟩
abbrev S1024x10 : Shape := ⟨2, ![1024, 10]⟩
abbrev S_ : Shape := ⟨0, ![]⟩
abbrev S1024x128 : Shape := ⟨2, ![1024, 128]⟩
abbrev S32768x10 : Shape := ⟨2, ![32768, 10]⟩
abbrev S1024x1024 : Shape := ⟨2, ![1024, 1024]⟩

abbrev nBuf : Space → Nat
  | .hbm => 12
  | .vmem => 5
  | .smem => 0
  | _ => 0

abbrev bufTy : (tb : Table) → Fin (tcTables nBuf tb) → BufTy
  | .hbm, ⟨0, _⟩ => ⟨S32768x64x16, .f32⟩
  | .hbm, ⟨1, _⟩ => ⟨S10x64, .f32⟩
  | .hbm, ⟨2, _⟩ => ⟨S32768x1024, .f32⟩
  | .hbm, ⟨3, _⟩ => ⟨S10x64, .f32⟩
  | .hbm, ⟨4, _⟩ => ⟨S64x10, .f32⟩
  | .hbm, ⟨5, _⟩ => ⟨S64x16x10, .f32⟩
  | .hbm, ⟨6, _⟩ => ⟨S1024x10, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S32768x10, .f32⟩
  | .local _ .vmem, ⟨0, _⟩ => ⟨S1024x1024, .f32⟩
  | .local _ .vmem, ⟨1, _⟩ => ⟨S1024x1024, .f32⟩
  | .local _ .vmem, ⟨2, _⟩ => ⟨S1024x128, .bf16⟩
  | .local _ .vmem, ⟨3, _⟩ => ⟨S1024x10, .f32⟩
  | .local _ .vmem, ⟨4, _⟩ => ⟨S1024x10, .f32⟩
  | _, _ => ⟨S32768x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_c : Ref sig .tc := ⟨.hbm, 7, rfl⟩
abbrev main_call0_call0_v0 : Ref sig .tc := ⟨.hbm, 8, rfl⟩
abbrev main_call0_v5 : Ref sig .tc := ⟨.hbm, 9, rfl⟩
abbrev main_call0_v6 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32768x64x16_S32768x1024 : S32768x64x16.ShapeCasts S32768x1024
  transposes_S10x64_S64x10_1_0 : S10x64.Transposes [1, 0] S64x10
  bcast_S64x10_S64x16x10_0_2 : S64x10.BroadcastsInDim S64x16x10 (![0, 2] : Fin 2 → Fin S64x16x10.rank)
  shapeCasts_S64x16x10_S1024x10 : S64x16x10.ShapeCasts S1024x10
  pads_S1024x10_S1024x128_000_01180 : S1024x10.Pads (![0, 0] : Fin 2 → Nat) ![0, 118] ![0, 0] S1024x128
  h_S_ : 0 < S_.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S1024x10 : S1024x128.Slices ![0, 0] S1024x10
  inb_S1024x10_S1024x10_0_0 : ∀ a, (![0, 0] : Fin 2 → Nat) a + S1024x10.size a ≤ S1024x10.size a
  h_S1024x10 : 0 < S1024x10.numel
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x10.size a ≤ S32768x10.size a
  hwx0_2 : ∀ i : grid0.Coords, EltTy.bits .f32 = 32 ∨ (Rect.block (s := S32768x10) S1024x10.size (cc0_transform_2 i) (hinb0_2 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_call0_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x64x16 : Shape := ⟨3, ![32768, 64, 16]⟩
abbrev S10x64 : Shape := ⟨2, ![10, 64]⟩
abbrev S_ : Shape := ⟨0, ![]⟩
abbrev S32768x64 : Shape := ⟨2, ![32768, 64]⟩
abbrev S32768x10 : Shape := ⟨2, ![32768, 10]⟩

abbrev nBuf : Space → Nat
  | .hbm => 7
  | .vmem => 0
  | .smem => 0
  | _ => 0

abbrev bufTy : (tb : Table) → Fin (tcTables nBuf tb) → BufTy
  | .hbm, ⟨0, _⟩ => ⟨S32768x64x16, .f32⟩
  | .hbm, ⟨1, _⟩ => ⟨S10x64, .f32⟩
  | .hbm, ⟨2, _⟩ => ⟨S32768x64x16, .f32⟩
  | .hbm, ⟨3, _⟩ => ⟨S_, .f32⟩
  | .hbm, ⟨4, _⟩ => ⟨S32768x64, .f32⟩
  | .hbm, ⟨5, _⟩ => ⟨S10x64, .f32⟩
  | .hbm, ⟨6, _⟩ => ⟨S32768x10, .f32⟩
  | _, _ => ⟨S32768x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S32768x64x16_S32768x64_d2 : S32768x64x16.ReducesTo [2] S32768x64
  h_S_ : 0 < S_.numel
  dot_S32768x64_S10x64_S32768x10_1_1_0_0_n_n_wf : DotDims.WF S32768x64 S10x64 S32768x10 [1] [1] [0] [0] [] []

variable [Facts₀]

def dot_S32768x64_S10x64_S32768x10_1_1_0_0_n_n : DotDims S32768x64 S10x64 S32768x10 where
  lhsContracting := [1]
  rhsContracting := [1]
  lhsNonContracting := [0]
  rhsNonContracting := [0]
  lhsBatch := []
  rhsBatch := []
  wf := dot_S32768x64_S10x64_S32768x10_1_1_0_0_n_n_wf

class Facts : Prop extends Facts₀ where

variable [Facts]
-- ==== Proof.Spec.lean ====
/-
  The weighted energy of the rows of a rank-3 array.

  For x of shape [32768, 64, 16] and w of shape [10, 64] the result is, at row r and column p,

      L(r, p) = ∑ f, (∑ e, x(r, f, e)²) · w(p, f)².

  One side computes it exactly so. The other flattens the pair (f, e) to k = 16·f + e and takes ONE sum over the
  1024 values of k of x(r, k / 16, k % 16)² · w(p, k / 16)². The two are the same extended real for ALL entries,
  infinite ones included: every x² and every w² is non-negative on the extended reals, and multiplication
  distributes over a sum of non-negative extended reals.
-/
import Idealize.ShloMosaic.PureOps.Ideal
import Idealize.ShloMosaic.Lib.ValueIdx

noncomputable section

namespace Cert.WeightedEnergy

open Idealize.ShloMosaic Idealize.ShloMosaic.ValueIdx

/-- A square is non-negative on the extended reals: at plus or minus infinity it is plus infinity. -/
theorem sq_nonneg (a : EReal) : 0 ≤ a * a := by
  rcases le_total 0 a with h | h
  · exact mul_nonneg h h
  · have h' : 0 ≤ -a := EReal.neg_nonneg.mpr h
    have := mul_nonneg h' h'
    rwa [neg_mul_neg] at this

/-- Multiplication on the right distributes over a finite sum of non-negative extended reals. -/
theorem sum_mul_of_nonneg {ι : Type*} (s : Finset ι) (a : ι → EReal) (c : EReal) (h : ∀ i ∈ s, 0 ≤ a i) :
    (∑ i ∈ s, a i) * c = ∑ i ∈ s, a i * c := by
  classical
  induction s using Finset.induction_on with
  | empty => simp
  | insert i s hi ih =>
    rw [Finset.sum_insert hi, Finset.sum_insert hi,
      EReal.right_distrib_of_nonneg (h i (Finset.mem_insert_self _ _))
        (Finset.sum_nonneg fun j hj => h j (Finset.mem_insert_of_mem hj)),
      ih fun j hj => h j (Finset.mem_insert_of_mem hj)]

/-- A sum over the 1024 flattened positions k = 16·f + e is the double sum over f < 64 and e < 16. -/
theorem sum_flat (g : Fin 64 → Fin 16 → EReal) :
    ∑ k : Fin 1024, g ⟨k.val / 16, by have := k.isLt; omega⟩ ⟨k.val % 16, by omega⟩ = ∑ f : Fin 64, ∑ e : Fin 16, g f e := by
  rw [← Fintype.sum_prod_type' g]
  refine (Fintype.sum_equiv (finProdFinEquiv (m := 64) (n := 16)) _ _ fun x => ?_).symm
  obtain ⟨f, e⟩ := x
  have hf := f.isLt
  have he := e.isLt
  have e1 : (⟨(finProdFinEquiv (m := 64) (n := 16) (f, e)).val / 16, by have := (finProdFinEquiv (m := 64) (n := 16) (f, e)).isLt; omega⟩ : Fin 64) = f :=
    Fin.ext (by show (e.val + 16 * f.val) / 16 = f.val; omega)
  have e2 : (⟨(finProdFinEquiv (m := 64) (n := 16) (f, e)).val % 16, by omega⟩ : Fin 16) = e :=
    Fin.ext (by show (e.val + 16 * f.val) % 16 = e.val; omega)
  rw [e1, e2]

/-- The weighted energy at row r and column p. -/
def energy (x : (⟨3, ![32768, 64, 16]⟩ : Shape).Idx → EReal) (w : (⟨2, ![10, 64]⟩ : Shape).Idx → EReal)
    (r : Fin 32768) (p : Fin 10) : EReal :=
  ∑ f : Fin 64, (∑ e : Fin 16, x (ix3 r f e) * x (ix3 r f e)) * (w (ix2 p f) * w (ix2 p f))

/-- The single sum over the flattened pair is the weighted energy. -/
theorem flat_eq_energy (x : (⟨3, ![32768, 64, 16]⟩ : Shape).Idx → EReal) (w : (⟨2, ![10, 64]⟩ : Shape).Idx → EReal)
    (r : Fin 32768) (p : Fin 10) :
    ∑ k : Fin 1024,
        (x (ix3 r ⟨k.val / 16, by have := k.isLt; omega⟩ ⟨k.val % 16, by omega⟩)
          * x (ix3 r ⟨k.val / 16, by have := k.isLt; omega⟩ ⟨k.val % 16, by omega⟩))
          * (w (ix2 p ⟨k.val / 16, by have := k.isLt; omega⟩) * w (ix2 p ⟨k.val / 16, by have := k.isLt; omega⟩))
      = energy x w r p := by
  rw [sum_flat fun f e => (x (ix3 r f e) * x (ix3 r f e)) * (w (ix2 p f) * w (ix2 p f))]
  unfold energy
  exact Finset.sum_congr rfl fun f _ => (sum_mul_of_nonneg _ _ _ fun e _ => sq_nonneg _).symm

end Cert.WeightedEnergy

end
-- ==== Proof.RefEnergy.lean ====
/-
  The reference computes the weighted energy: it squares x, sums the squares over the last axis from zero,
  squares w, and contracts the middle axis of the first with the last axis of the second. Read at row r and column p
  this is ∑ f, (0 + ∑ e, x(r, f, e)²) · w(p, f)², the weighted energy itself.
-/
import proofs.«114632_j541165879452_2_alg».proof.Proof.Gen.ReferenceIdeal.Read
import proofs.«114632_j541165879452_2_alg».proof.Proof.Spec

noncomputable section

namespace Cert.ReferenceIdeal.RefEnergy

open Cert.ReferenceIdeal Cert.ReferenceIdeal.Read Idealize.ShloMosaic Idealize.ShloMosaic.ValueIdx Cert.WeightedEnergy

/-- The reference's result, index by index, is the weighted energy of its two arguments. -/
theorem result_eq (x : (⟨S32768x64x16, .f32⟩ : BufTy).Contents (Elt Ideal)) (w : (⟨S10x64, .f32⟩ : BufTy).Contents (Elt Ideal)) :
    val_main_v3 (F := Ideal) x w = fun i => energy x w (i 0) (i 1) := by
  funext i
  obtain ⟨r, p, rfl⟩ : ∃ (r : Fin 32768) (p : Fin 10), i = ix2 r p := ⟨i 0, i 1, eq_ix2 i⟩
  rw [val_main_v3_apply]
  show _ = energy x w r p
  unfold energy
  refine Finset.sum_congr rfl fun f _ => ?_
  have el : lidx_main_v3 (ix2 r p) f = ix2 r f :=
    funext fun a => Fin.ext (by match a with | ⟨0, _⟩ => rfl | ⟨1, _⟩ => rfl)
  have er : ridx_main_v3 (ix2 r p) f = ix2 p f :=
    funext fun a => Fin.ext (by match a with | ⟨0, _⟩ => rfl | ⟨1, _⟩ => rfl)
  have ei : ∀ e : Fin 16, idx_main_v1 (ix2 r f) e = ix3 r f e := fun e =>
    funext fun a => Fin.ext (by match a with | ⟨0, _⟩ => rfl | ⟨1, _⟩ => rfl | ⟨2, _⟩ => rfl)
  rw [el, er, val_main_v1_apply, val_main_v2_apply, val_main_cst_apply]
  simp only [ei, val_main_v0_apply, Ideal.mulf_def, Ideal.ofBits_def, Ideal.ofBits_zero_f32, zero_add]

end Cert.ReferenceIdeal.RefEnergy

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.Payload.lean ====
/-
  What one grid point stores: for the point's block x0 of 1024 rows by 1024 flattened positions and the whole
  1024 by 128 coefficient block x1, the stored value at row y and column p < 10 is column p of the product of the
  entry-wise squares of x0 with x1:

      ∑ k < 1024, x0(y, k)² · x1(k, p).

  The narrowing of the squares and of the coefficients to a shorter float format is the identity on the extended
  reals, the product starts from the zero accumulator, and the first 10 of its 128 columns are kept.
-/
import proofs.«114632_j541165879452_2_alg».proof.Proof.Gen.KernelIdeal.Skeleton
import proofs.«114632_j541165879452_2_alg».proof.Proof.LibPlainDot
import Idealize.ShloMosaic.Lib.Pipeline.Value
import Idealize.ShloMosaic.Lib.ValueIdx
import Idealize.ShloMosaic.PureOps.Ideal.Laws

noncomputable section

namespace Cert.KernelIdeal.Stored

open Cert.KernelIdeal Cert.KernelIdeal.Gen Idealize.ShloMosaic Idealize.ShloMosaic.ValueIdx

/-- The kernel's product has the plain dimension numbers of a 1024 by 1024 times 1024 by 128 product. -/
theorem dot_plain : dot_S1024x1024_S1024x128_S1024x128_1_0_0_1_n_n = DotDims.plain 1024 1024 128 := rfl

/-- The stored value at row y and column p. -/
theorem payload_apply (x0 : Vec Ideal S1024x1024 .f32) (x1 : Vec Ideal S1024x128 .bf16) (y : Fin 1024) (p : Fin 10) :
    k0_pay1 (F := Ideal) x0 x1 (ix2 y p)
      = ∑ k : Fin 1024, (x0 (ix2 y k) * x0 (ix2 y k)) * x1 (ix2 k ⟨p.val, by have := p.isLt; omega⟩) := by
  unfold k0_pay1
  refine (extractStridedSlice_apply _ _ _ (ix2 y p) (ix2 y (⟨p.val, by have := p.isLt; omega⟩ : Fin 128)) (fun a => by
    match a with
    | ⟨0, _⟩ => show y.val = 0 + y.val; omega
    | ⟨1, _⟩ => show p.val = 0 + p.val; omega)).trans ?_
  refine (PlainDot.matmul_zero_apply _ dot_plain none _ _ y _).trans ?_
  refine Finset.sum_congr rfl fun k _ => ?_
  rw [shapeCast_self, shapeCast_self]
  rfl

end Cert.KernelIdeal.Stored

end
-- ==== Proof.Staged.lean ====
/-
  What the region finds in the two arrays it stages.

  The first is x with its last two axes flattened: position k of a row is the pair (k / 16, k % 16).
  The second is the coefficient table: w squared, transposed, each of its 64 rows repeated 16 times, padded with
  zero columns from 10 to 128 columns, and narrowed to a shorter float format (the identity on the extended reals).
  Read at flattened position k and a column p < 10 it is w(p, k / 16)².
-/
import proofs.«114632_j541165879452_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.KernelVsHost
import Idealize.ShloMosaic.PureOps.Ideal

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The argument x on core c, as a function from indices to extended reals. -/
abbrev argX (c : Dev nD) : S32768x64x16.Idx → EReal := m ((c : Thread nD τ).loc main_arg0)

/-- The argument w on core c, as a function from indices to extended reals. -/
abbrev argW (c : Dev nD) : S10x64.Idx → EReal := m ((c : Thread nD τ).loc main_arg1)

/-- The first staged array is x reshaped to 32768 rows of 1024 flattened positions. -/
theorem flat_eq (c : Dev nD) :
    (V m c main_call0_v0 : S32768x1024.Idx → EReal)
      = shapeCast S32768x1024 (argX m c) shapeCasts_S32768x64x16_S32768x1024 := by
  dsimp only [Gen.V, Gen.hostOps0]
  after_results
  rfl

/-- Row r, flattened position k of the first staged array is x(r, k / 16, k % 16). -/
theorem flat_apply (c : Dev nD) (r : Fin 32768) (k : Fin 1024) :
    (V m c main_call0_v0 : S32768x1024.Idx → EReal) (ix2 r k)
      = (argX m c)
          (ix3 r ⟨k.val / 16, by have := k.isLt; omega⟩ ⟨k.val % 16, by omega⟩) := by
  rw [flat_eq]
  refine shapeCast_apply _ _ (ix2 r k) (ix3 r ⟨k.val / 16, by have := k.isLt; omega⟩ ⟨k.val % 16, by omega⟩) ?_
  rw [Shape.rowMajor_val_three, Shape.rowMajor_val_two]
  show (r.val * 64 + k.val / 16) * 16 + k.val % 16 = r.val * 1024 + k.val
  omega

/-- The second staged array: w squared, transposed, its rows repeated, padded with zero columns, narrowed. -/
theorem coeff_eq (c : Dev nD) :
    (V m c main_call0_v6 : S1024x128.Idx → EReal)
      = truncf (F := Ideal) .bf16
          (pad S1024x128 ![0, 0] ![0, 118] ![0, 0]
            (shapeCast S1024x10
              (broadcastInDim S64x16x10 ![0, 2] bcast_S64x10_S64x16x10_0_2
                (transpose S64x10 [1, 0]
                  (mulf (F := Ideal) (φ := .f32) (argW m c)
                    (argW m c))
                  transposes_S10x64_S64x10_1_0))
              shapeCasts_S64x16x10_S1024x10)
            (sitofp (F := Ideal) .f32 (constantI S_ 32 0#32)) pads_S1024x10_S1024x128_000_01180 h_S_)
          bitsLt_bf16_f32 := by
  dsimp only [Gen.V, Gen.hostOps0]
  after_results
  rfl

/-- Flattened position k, column p < 10 of the coefficient table is w(p, k / 16)². -/
theorem coeff_apply (c : Dev nD) (k : Fin 1024) (p : Fin 10) :
    (V m c main_call0_v6 : S1024x128.Idx → EReal) (ix2 k ⟨p.val, by have := p.isLt; omega⟩)
      = (argW m c) (ix2 p ⟨k.val / 16, by have := k.isLt; omega⟩)
        * (argW m c) (ix2 p ⟨k.val / 16, by have := k.isLt; omega⟩) := by
  rw [coeff_eq]
  refine (truncf_apply (φ := .f32) (ψ := .bf16) _ bitsLt_bf16_f32 _).trans ?_
  refine (pad_apply_of_inside _ _ _ _ _ _ _ (ix2 k ⟨p.val, by have := p.isLt; omega⟩) (ix2 k p) (fun a => by
    match a with
    | ⟨0, _⟩ => show k.val = 0 + k.val * (0 + 1); omega
    | ⟨1, _⟩ => show p.val = 0 + p.val * (0 + 1); omega)).trans ?_
  refine (shapeCast_apply _ _ (ix2 k p)
    (ix3 (⟨k.val / 16, by have := k.isLt; omega⟩ : Fin 64) (⟨k.val % 16, by omega⟩ : Fin 16) p) (by
      rw [Shape.rowMajor_val_three, Shape.rowMajor_val_two]
      show (k.val / 16 * 16 + k.val % 16) * 10 + p.val = k.val * 10 + p.val
      omega)).trans ?_
  refine (broadcastInDim_apply _ _ _ _ (ix2 (⟨k.val / 16, by have := k.isLt; omega⟩ : Fin 64) p) (fun a => by
    match a with
    | ⟨0, _⟩ => rfl
    | ⟨1, _⟩ => rfl)).trans ?_
  refine (transpose_apply _ _ _ _ (ix2 p (⟨k.val / 16, by have := k.isLt; omega⟩ : Fin 64)) (fun b => by
    match b with
    | ⟨0, _⟩ => rfl
    | ⟨1, _⟩ => rfl)).trans ?_
  rfl

end Cert.KernelIdeal.Staged

end
-- ==== Proof.Whole.lean ====
/-
  From the 32 blocks to the whole result array.

  Grid point t stages rows 1024·t … 1024·t + 1023 of the flattened x (all 1024 positions), the whole coefficient
  table, and writes back rows 1024·t … 1024·t + 1023 of the result (all 10 columns). What it writes at row y,
  column p of its block is the weighted energy of x and w at row 1024·t + y and column p. The 32 blocks tile the
  32768 rows, so after the run the result array is the weighted energy everywhere.
-/
import proofs.«114632_j541165879452_2_alg».proof.Proof.Gen.KernelIdeal.Value
import proofs.«114632_j541165879452_2_alg».proof.Proof.Spec
import proofs.«114632_j541165879452_2_alg».proof.Proof.Payload
import proofs.«114632_j541165879452_2_alg».proof.Proof.Staged
import Idealize.ShloMosaic.Lib.Pipeline.Value

noncomputable section

namespace Cert.KernelIdeal.Whole

open Cert.KernelIdeal Cert.KernelIdeal.Gen Cert.KernelIdeal.Value Cert.KernelIdeal.Staged Cert.KernelIdeal.Stored
open Idealize.ShloMosaic Idealize.ShloMosaic.TcCoe Idealize.SL.Sem Idealize.ShloMosaic.ValueIdx Cert.WeightedEnergy
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array: the weighted energy of the two arguments, index by index. -/
def result (c : Dev nD) : S32768x10.Idx → EReal := fun i => energy (argX m c) (argW m c) (i 0) (i 1)

/-- The block indices at grid point t: the x block and the result block are block t along the rows, the
    coefficient table is one block. Decided over the 32 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row y, position k of the x block at point t is row 1024·t + y, position k of the flattened x. -/
theorem xblock_apply (c : Dev nD) (t : Fin cfg0.N) (y k : Fin 1024) (r : Fin 32768) (hr : r.val = t.val * 1024 + y.val) :
    (iblk m c 0 t : Vec Ideal S1024x1024 .f32) (ix2 y k) = (V m c main_call0_v0 : S32768x1024.Idx → EReal) (ix2 r k) := by
  obtain ⟨e00, e01, -, -, -, -⟩ := idx_facts t
  unfold iblk
  rw [View.read_apply]
  show (V m c main_call0_v0 : S32768x1024.Idx → EReal) _ = _
  congr 1
  funext a
  apply Fin.ext
  match a with
  | ⟨0, _⟩ => show win0_0.index t (0 : Fin 2) * 1024 + 1 * y.val = r.val; rw [e00, hr]; omega
  | ⟨1, _⟩ => show win0_0.index t (1 : Fin 2) * 1024 + 1 * k.val = k.val; rw [e01]; omega

/-- The coefficient block at every point is the whole coefficient table. -/
theorem wblock_apply (c : Dev nD) (t : Fin cfg0.N) (k : Fin 1024) (q : Fin 128) :
    (iblk m c 1 t : Vec Ideal S1024x128 .bf16) (ix2 k q) = (V m c main_call0_v6 : S1024x128.Idx → EReal) (ix2 k q) := by
  obtain ⟨-, -, e10, e11, -, -⟩ := idx_facts t
  unfold iblk
  rw [View.read_apply]
  show (V m c main_call0_v6 : S1024x128.Idx → EReal) _ = _
  congr 1
  funext a
  apply Fin.ext
  match a with
  | ⟨0, _⟩ => show win0_1.index t (0 : Fin 2) * 1024 + 1 * k.val = k.val; rw [e10]; omega
  | ⟨1, _⟩ => show win0_1.index t (1 : Fin 2) * 128 + 1 * q.val = q.val; rw [e11]; omega

/-- What a point stores at row y, column p of its block, when its x block holds rows of the flattened x from row r - y
    on and its coefficient block is the table: the weighted energy at row r, column p. -/
theorem point_value (c : Dev nD) (x0 : Vec Ideal S1024x1024 .f32) (x1 : Vec Ideal S1024x128 .bf16)
    (y : Fin 1024) (p : Fin 10) (r : Fin 32768)
    (h0 : ∀ k : Fin 1024, x0 (ix2 y k) = (V m c main_call0_v0 : S32768x1024.Idx → EReal) (ix2 r k))
    (h1 : ∀ k : Fin 1024, x1 (ix2 k ⟨p.val, by have := p.isLt; omega⟩)
      = (V m c main_call0_v6 : S1024x128.Idx → EReal) (ix2 k ⟨p.val, by have := p.isLt; omega⟩)) :
    k0_pay1 (F := Ideal) x0 x1 (ix2 y p) = energy (argX m c) (argW m c) r p := by
  rw [payload_apply, ← flat_eq_energy]
  refine Finset.sum_congr rfl fun k _ => ?_
  rw [h0 k, h1 k, flat_apply, coeff_apply]

/-- The result array at an index whose coordinates are r and p. -/
theorem result_apply (c : Dev nD) (i : S32768x10.Idx) (r : Fin 32768) (p : Fin 10) (h0 : r.val = (i 0).val) (h1 : p.val = (i 1).val) :
    energy (argX m c) (argW m c) r p = result m c i := by
  have e0 : r = i 0 := Fin.ext h0
  have e1 : p = i 1 := Fin.ext h1
  subst e0 e1
  rfl

/-- The result window's blocks are whole blocks: reading a stored block through the window's cut changes nothing. -/
theorem cut_apply (t : Fin cfg0.N) (X : Vec Ideal S1024x10 .f32) (j : S1024x10.Idx) :
    (win0 2).cut (grid0.coords t) X j = X j := rfl

/-- What point t writes back is block t of the result array. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero hz]
  simp only [View.ld_unit_zero (S := S1024x1024) hz, View.ld_unit_zero (S := S1024x128) hz]
  obtain ⟨-, -, -, -, e20, e21⟩ := idx_facts t
  have ht : t.val < 32 := t.isLt.trans_eq N_0
  refine funext fun (j : S1024x10.Idx) => ?_
  obtain ⟨y, p, rfl⟩ : ∃ (y : Fin 1024) (p : Fin 10), j = ix2 y p := ⟨j 0, j 1, eq_ix2 j⟩
  have hy := y.isLt
  rw [cut_apply]
  refine (point_value m c (iblk m c 0 t) (iblk m c 1 t) y p ⟨t.val * 1024 + y.val, by omega⟩
    (fun k => xblock_apply m c t y k _ rfl) (fun k => wblock_apply m c t k _)).trans ?_
  rw [View.read_apply]
  refine result_apply m c _ _ _ ?_ ?_
  · show t.val * 1024 + y.val = win0_2.index t (0 : Fin 2) * 1024 + 1 * y.val
    rw [e20]; omega
  · show p.val = win0_2.index t (1 : Fin 2) * 10 + 1 * p.val
    rw [e21]; omega

/-- An index of the result array is in point t's block iff each coordinate is in the block's range on its axis. -/
theorem mem_blk (t : Fin cfg0.N) (i : S32768x10.Idx) :
    i ∈ ((cfg0.win 2).blk t).view.set ↔ ∀ a : Fin 2, win0_2.index t a * S1024x10.size a ≤ (i a).val ∧ (i a).val < win0_2.index t a * S1024x10.size a + S1024x10.size a := by
  show i ∈ ((View.whole main_v0).slice (win0_2.rect t)).set ↔ _
  rw [View.set_slice_whole, Rect.mem_set_unit]
  exact Iff.rfl

/-- Every row of the result lies in the block of the point its row number divided by 1024 names. -/
theorem cover (i : S32768x10.Idx) : ∃ t : Fin cfg0.N, (cfg0.win 2).flush t = true ∧ i ∈ ((cfg0.win 2).blk t).view.set := by
  have hi0 : (i 0).val < 32768 := (i 0).isLt
  have hi1 : (i 1).val < 10 := (i 1).isLt
  have hN : cfg0.N = 32 := N_0
  refine ⟨⟨(i 0).val / 1024, by rw [hN]; omega⟩, flush0_2 _, ?_⟩
  obtain ⟨-, -, -, -, e20, e21⟩ := idx_facts ⟨(i 0).val / 1024, by rw [hN]; omega⟩
  rw [mem_blk]
  intro a
  match a with
  | ⟨0, _⟩ =>
    show win0_2.index _ (0 : Fin 2) * 1024 ≤ (i 0).val ∧ (i 0).val < win0_2.index _ (0 : Fin 2) * 1024 + 1024
    rw [e20]; show (i 0).val / 1024 * 1024 ≤ (i 0).val ∧ (i 0).val < (i 0).val / 1024 * 1024 + 1024; omega
  | ⟨1, _⟩ =>
    show win0_2.index _ (1 : Fin 2) * 10 ≤ (i 1).val ∧ (i 1).val < win0_2.index _ (1 : Fin 2) * 10 + 10
    rw [e21]; omega

/-- The result array after the run is the weighted energy of the arguments. -/
theorem final (c : Dev nD) : (dats m 0 c).arrAt 2 cfg0.N = result m c :=
  (dats m 0 c).arrAt_eq_of_cover 2 (result m c) (fun t _ => flushed_eq m c t) (cover)

/-- The run, read: the result array at the weighted energy of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  The weighted energy lp(r, p) = ∑ f, (∑ e, x(r, f, e)²) · w(p, f)² of x : [32768, 64, 16] and w : [10, 64], computed
  two ways, is one array of extended reals.

  The kernel flattens (f, e) to k = 16·f + e, builds the 1024 by 128 coefficient table T(k, p) = w(p, k / 16)² (zero
  in the columns from 10 on) and, for each of 32 blocks of 1024 rows, multiplies the entry-wise squares of the
  flattened rows with T, keeping the first 10 columns: ∑ k, x(r, k / 16, k % 16)² · w(p, k / 16)²
  (Proof/Payload.lean, Proof/Staged.lean, Proof/Whole.lean). The reference sums the squares over e, squares w and
  contracts over f (Proof/RefEnergy.lean). Both are the weighted energy (Proof/Spec.lean): squares are
  non-negative on the extended reals, so the product distributes over the inner sum, at infinite entries too, and
  the claim needs nothing of its precondition. The kernel's idealization rewrote nothing, so it is preserved trivially; the
  three frames are the generated runs.
-/
import proofs.«114632_j541165879452_2_alg».proof.Defs
import proofs.«114632_j541165879452_2_alg».proof.Proof.Gen.Kernel
import proofs.«114632_j541165879452_2_alg».proof.Proof.Gen.Kernel.Skeleton
import proofs.«114632_j541165879452_2_alg».proof.Proof.Gen.Kernel.Launch
import proofs.«114632_j541165879452_2_alg».proof.Proof.Gen.Kernel.Points
import proofs.«114632_j541165879452_2_alg».proof.Proof.Gen.Kernel.Frame
import proofs.«114632_j541165879452_2_alg».proof.Proof.Gen.KernelIdeal
import proofs.«114632_j541165879452_2_alg».proof.Proof.Gen.KernelIdeal.Skeleton
import proofs.«114632_j541165879452_2_alg».proof.Proof.Gen.KernelIdeal.Launch
import proofs.«114632_j541165879452_2_alg».proof.Proof.Gen.KernelIdeal.Points
import proofs.«114632_j541165879452_2_alg».proof.Proof.Gen.KernelIdeal.Frame
import proofs.«114632_j541165879452_2_alg».proof.Proof.Gen.ReferenceIdeal
import proofs.«114632_j541165879452_2_alg».proof.Proof.Gen.Pre_finite_inputs
import proofs.«114632_j541165879452_2_alg».proof.Proof.Gen.KernelIdeal.Value
import proofs.«114632_j541165879452_2_alg».proof.Proof.Gen.ReferenceIdeal.Run
import proofs.«114632_j541165879452_2_alg».proof.Proof.Gen.ReferenceIdeal.Read
import proofs.«114632_j541165879452_2_alg».proof.Proof.RefEnergy
import proofs.«114632_j541165879452_2_alg».proof.Proof.Whole
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's are both the weighted energy of the
    arguments, which agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefEnergy.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
